-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel

variable [Facts]

def fn {F : FTy → Type} [FloatOps F] (main_arg0 : FVec F S128x1024 .f32) (main_arg1 : IVec S128x1024 32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  main_v3
-- ==== Kernel.lean ====
abbrev S128x1024 : Shape := ⟨2, ![128, 1024]⟩
abbrev S128x1 : Shape := ⟨2, ![128, 1]⟩
abbrev S32x1024 : Shape := ⟨2, ![32, 1024]⟩
abbrev S32x1 : Shape := ⟨2, ![32, 1]⟩
abbrev S32 : Shape := ⟨1, ![32]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S128x1024, .i32⟩
  | .hbm, ⟨2, _⟩ => ⟨S128x1, .f32⟩
  | .hbm, ⟨3, _⟩ => ⟨S_, .f32⟩
  | .hbm, ⟨4, _⟩ => ⟨S_, .f32⟩
  | .local _ .vmem, ⟨0, _⟩ => ⟨S32x1024, .f32⟩
  | .local _ .vmem, ⟨1, _⟩ => ⟨S32x1024, .f32⟩
  | .local _ .vmem, ⟨2, _⟩ => ⟨S32x1024, .i32⟩
  | .local _ .vmem, ⟨3, _⟩ => ⟨S32x1024, .i32⟩
  | .local _ .vmem, ⟨4, _⟩ => ⟨S32x1, .f32⟩
  | .local _ .vmem, ⟨5, _⟩ => ⟨S32x1, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x1024_S32x1024_0_0 : ∀ a, (![0, 0] : Fin 2 → Nat) a + S32x1024.size a ≤ S32x1024.size a
  h_S32x1024 : 0 < S32x1024.numel
  reduces_S32x1024_S32 : S32x1024.Reduces [1] S32
  shapeCasts_S32_S32x1 : S32.ShapeCasts S32x1
  natLt_1_32 : 1 < 32
  inb_S32x1_S32x1_0_0 : ∀ a, (![0, 0] : Fin 2 → Nat) a + S32x1.size a ≤ S32x1.size a
  h_S32x1 : 0 < S32x1.numel
  reducesTo_S128x1_S_d0_1 : S128x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S128x1024.size a
  hwx0_0 : ∀ i : grid0.Coords, EltTy.bits .f32 = 32 ∨ (Rect.block (s := S128x1024) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S128x1024.size a
  hwx0_1 : ∀ i : grid0.Coords, EltTy.bits .i32 = 32 ∨ (Rect.block (s := S128x1024) S32x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S128x1.size a
  hwx0_2 : ∀ i : grid0.Coords, EltTy.bits .f32 = 32 ∨ (Rect.block (s := S128x1) S32x1.size (cc0_transform_2 i) (hinb0_2 i)).WholeWords (EltTy.packing .f32)

variable [Facts₀]

abbrev win0_0 : Pipeline.Window sig grid0 :=
  Pipeline.Window.ofSpec (Memref.whole main_arg0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1024 : Shape := ⟨2, ![128, 1024]⟩
abbrev S_ : Shape := ⟨0, ![]⟩
abbrev S128x1024x1 : Shape := ⟨3, ![128, 1024, 1]⟩
abbrev S128x1x1024 : Shape := ⟨3, ![128, 1, 1024]⟩
abbrev S128x1024x1024 : Shape := ⟨3, ![128, 1024, 1024]⟩
abbrev S128 : Shape := ⟨1, ![128]⟩

abbrev nBuf : Space → Nat
  | .hbm => 29
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .i32⟩
  | .hbm, ⟨2, _⟩ => ⟨S_, .i32⟩
  | .hbm, ⟨3, _⟩ => ⟨S128x1024, .i32⟩
  | .hbm, ⟨4, _⟩ => ⟨S128x1024, .i1⟩
  | .hbm, ⟨5, _⟩ => ⟨S128x1024x1, .i1⟩
  | .hbm, ⟨6, _⟩ => ⟨S128x1024, .i1⟩
  | .hbm, ⟨7, _⟩ => ⟨S128x1x1024, .i1⟩
  | .hbm, ⟨8, _⟩ => ⟨S128x1024x1024, .i1⟩
  | .hbm, ⟨9, _⟩ => ⟨S128x1024x1024, .i1⟩
  | .hbm, ⟨10, _⟩ => ⟨S128x1024x1024, .i1⟩
  | .hbm, ⟨11, _⟩ => ⟨S128x1x1024, .f32⟩
  | .hbm, ⟨12, _⟩ => ⟨S128x1024x1, .f32⟩
  | .hbm, ⟨13, _⟩ => ⟨S128x1024x1024, .f32⟩
  | .hbm, ⟨14, _⟩ => ⟨S128x1024x1024, .f32⟩
  | .hbm, ⟨15, _⟩ => ⟨S128x1024x1024, .f32⟩
  | .hbm, ⟨16, _⟩ => ⟨S128x1024x1024, .f32⟩
  | .hbm, ⟨17, _⟩ => ⟨S128x1024x1024, .i32⟩
  | .hbm, ⟨18, _⟩ => ⟨S_, .i32⟩
  | .hbm, ⟨19, _⟩ => ⟨S128, .i32⟩
  | .hbm, ⟨20, _⟩ => ⟨S128, .f32⟩
  | .hbm, ⟨21, _⟩ => ⟨S_, .f32⟩
  | .hbm, ⟨22, _⟩ => ⟨S128x1024x1024, .f32⟩
  | .hbm, ⟨23, _⟩ => ⟨S128x1024x1024, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S_, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_call0_v0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024_S128x1x1024_0_2 : S128x1024.BroadcastsInDim S128x1x1024 (![0, 2] : Fin 2 → Fin S128x1x1024.rank)
  bcast_S128x1024x1_S128x1024x1024_0_1_2 : S128x1024x1.BroadcastsInDim S128x1024x1024 (![0, 1, 2] : Fin 3 → Fin S128x1024x1024.rank)
  bcast_S128x1x1024_S128x1024x1024_0_1_2 : S128x1x1024.BroadcastsInDim S128x1024x1024 (![0, 1, 2] : Fin 3 → Fin S128x1024x1024.rank)
  natLt_1_32 : 1 < 32
  reducesTo_S128x1024x1024_S128_d1_2 : S128x1024x1024.ReducesTo [1, 2] S128
  h_S_ : 0 < S_.numel
  bcast_S_S128x1024x1024 : S_.BroadcastsInDim S128x1024x1024 (![] : Fin 0 → Fin S128x1024x1024.rank)
  reducesTo_S128_S_d0 : S128.ReducesTo [0] S_

variable [Facts₀]

class Facts : Prop extends Facts₀ where

variable [Facts]
-- ==== Proof.PairLaw.lean ====
/-
  The law that joins the pairwise form of the loss to its separable form, for one row.

  For real numbers x_k and a set P of "positive" labels, the sum over all ordered pairs (p, q) with p in P and q outside P
  of exp(x_q - x_p) factors: exp(x_q - x_p) = exp(0 - x_p) * exp(x_q), and a finite double sum of products of reals is the
  product of the two sums. The same factorization with every summand replaced by 1 counts the pairs: their number is
  |P| times the number of labels outside P. Finiteness of the entries is what allows the distributive law; on the
  extended reals it fails at the infinities.
-/
import Idealize.ShloMosaic.PureOps.Ideal

noncomputable section

open scoped BigOperators

namespace Cert.PairLaw

open Idealize.ShloMosaic

variable {ι : Type} [Fintype ι]

/-- The embedding of the reals into the extended reals commutes with finite sums. -/
theorem coe_sum (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- THE FACTORIZATION: over real entries, the sum over pairs (p, q), p positive and q not, of exp(x_q - x_p) is the
    product of the sum over positives of exp(0 - x_p) and the sum over the others of exp(x_q). -/
theorem pair_sum (X : ι → EReal) (hX : ∀ i, ∃ r : ℝ, X i = (r : EReal)) (P : ι → Prop) [DecidablePred P] :
    (∑ p, ∑ q, (if P p ∧ ¬ P q then Ideal.exp (X q - X p) else 0))
      = (∑ p, if P p then Ideal.exp (0 - X p) else 0) * (∑ q, if ¬ P q then Ideal.exp (X q) else 0) := by
  classical
  choose x hx using hX
  obtain rfl : X = fun i => (x i : EReal) := funext hx
  have t1 : ∀ p q, (if P p ∧ ¬ P q then Ideal.exp ((x q : EReal) - (x p : EReal)) else 0)
      = (((if P p then Real.exp (0 - x p) else 0) * (if ¬ P q then Real.exp (x q) else 0) : ℝ) : EReal) := by
    intro p q
    by_cases hp : P p
    · by_cases hq : P q
      · rw [if_neg (fun h => h.2 hq), if_pos hp, if_neg (not_not.2 hq), mul_zero, EReal.coe_zero]
      · rw [if_pos ⟨hp, hq⟩, if_pos hp, if_pos hq, ← EReal.coe_sub, Ideal.exp_coe, ← Real.exp_add]
        congr 2; ring
    · rw [if_neg (fun h => hp h.1), if_neg hp, zero_mul, EReal.coe_zero]
  have t2 : ∀ p, (if P p then Ideal.exp (0 - (x p : EReal)) else 0)
      = ((if P p then Real.exp (0 - x p) else 0 : ℝ) : EReal) := by
    intro p
    by_cases hp : P p
    · rw [if_pos hp, if_pos hp, ← EReal.coe_zero, ← EReal.coe_sub, Ideal.exp_coe]
    · rw [if_neg hp, if_neg hp, EReal.coe_zero]
  have t3 : ∀ q, (if ¬ P q then Ideal.exp (x q : EReal) else 0)
      = ((if ¬ P q then Real.exp (x q) else 0 : ℝ) : EReal) := by
    intro q
    by_cases hq : P q
    · rw [if_neg (not_not.2 hq), if_neg (not_not.2 hq), EReal.coe_zero]
    · rw [if_pos hq, if_pos hq, Ideal.exp_coe]
  simp only [t1, t2, t3, ← coe_sum, ← EReal.coe_mul]
  rw [Finset.sum_mul_sum]

/-- THE COUNT: the number of pairs (p, q), p positive and q not, is the number of positives times the number of the
    others. -/
theorem pair_count (P : ι → Prop) [DecidablePred P] :
    (∑ p, ∑ q, (if P p ∧ ¬ P q then 1 else 0 : ℕ)) = (∑ p, if P p then 1 else 0) * (∑ q, if ¬ P q then 1 else 0) := by
  rw [Finset.sum_mul_sum]
  refine Finset.sum_congr rfl fun p _ => Finset.sum_congr rfl fun q _ => ?_
  by_cases hp : P p <;> by_cases hq : P q <;> simp [hp, hq]

/-- A count taken in the extended reals, one unit per member, is the natural-number count embedded. -/
theorem count_coe (P : ι → Prop) [DecidablePred P] :
    (∑ k, (if P k then (1 : EReal) else 0)) = (((∑ k, (if P k then 1 else 0 : ℕ) : ℕ) : ℝ) : EReal) := by
  rw [Nat.cast_sum, coe_sum]
  refine Finset.sum_congr rfl fun k _ => ?_
  by_cases hk : P k
  · rw [if_pos hk, if_pos hk, Nat.cast_one, EReal.coe_one]
  · rw [if_neg hk, if_neg hk, Nat.cast_zero, EReal.coe_zero]

end Cert.PairLaw

end
-- ==== Proof.BitCount.lean ====
/-
  Counting with 32-bit words.

  A one-bit word widened to 32 bits is the word 1 or the word 0; a sum of such words, taken in 32-bit arithmetic, is the
  word of the natural-number count, and read as a signed integer it IS the count as long as the count is below 2^31 —
  no wrap. Read as a number, a widened bit is 1 or 0.
-/
import Idealize.ShloMosaic.PureOps.Reduce
import Idealize.ShloMosaic.PureOps.Ideal
import Mathlib.Data.BitVec

noncomputable section

open scoped BigOperators

namespace Cert.BitCount

open Idealize.ShloMosaic

variable {ι : Type}

/-- A one-bit word widened to 32 bits is the word of 1 or of 0. -/
theorem setWidth_bit (b : BitVec 1) : b.setWidth 32 = BitVec.ofNat 32 (if b = 1#1 then 1 else 0) := by
  rcases BitVec.eq_zero_or_eq_one b with rfl | rfl <;> decide

/-- Read as a signed integer and then as a real number, a widened bit is 1 or 0. -/
theorem toInt_setWidth_bit (b : BitVec 1) : (((b.setWidth 32).toInt : ℤ) : ℝ) = if b = 1#1 then 1 else 0 := by
  rcases BitVec.eq_zero_or_eq_one b with rfl | rfl
  · have h : (BitVec.setWidth 32 (0#1)).toInt = 0 := by decide
    rw [h, if_neg (by decide)]; norm_num
  · have h : (BitVec.setWidth 32 (1#1)).toInt = 1 := by decide
    rw [h, if_pos rfl]; norm_num

/-- As an extended real, a widened bit is 1 or 0. -/
theorem cast_bit (b : BitVec 1) : ((((b.setWidth 32).toInt : ℤ) : ℝ) : EReal) = if b = 1#1 then 1 else 0 := by
  rw [toInt_setWidth_bit]
  split_ifs <;> simp

/-- A select on a one-bit condition is the `if` on "the bit is 1". -/
theorem select_bit {α : Type} (b : BitVec 1) (u v : α) : Scalar.select b u v = if b = 1#1 then u else v := by
  rcases BitVec.eq_zero_or_eq_one b with rfl | rfl <;> rfl

/-- A bit flipped (exclusive-or with 1) is 1 exactly when the bit is not. -/
theorem xori_one (b : BitVec 1) : IntOp.xori b 1#1 = 1#1 ↔ ¬ b = 1#1 := by
  rcases BitVec.eq_zero_or_eq_one b with rfl | rfl <;> decide

/-- The conjunction of a bit with the complement of another is 1 exactly when the first is 1 and the second is not. -/
theorem andi_not (b b' : BitVec 1) : IntOp.andi b (~~~b') = 1#1 ↔ (b = 1#1 ∧ ¬ b' = 1#1) := by
  rcases BitVec.eq_zero_or_eq_one b with rfl | rfl <;> rcases BitVec.eq_zero_or_eq_one b' with rfl | rfl <;> decide

/-- A 32-bit sum of the words of natural numbers is the word of their sum. -/
theorem sum_ofNat (s : Finset ι) (g : ι → ℕ) : (∑ i ∈ s, BitVec.ofNat 32 (g i)) = BitVec.ofNat 32 (∑ i ∈ s, g i) := by
  classical
  refine Finset.induction_on s (by simp) ?_
  intro a s ha ih
  rw [Finset.sum_insert ha, Finset.sum_insert ha, ih, BitVec.ofNat_add]

/-- Below 2^31 the word of a natural number, read signed, is the number. -/
theorem toInt_ofNat_small (n : ℕ) (h : n < 2147483648) : (BitVec.ofNat 32 n).toInt = (n : ℤ) := by
  rw [BitVec.toInt_eq_toNat_cond, BitVec.toNat_ofNat]
  have h2 : n % 2 ^ 32 = n := Nat.mod_eq_of_lt (by omega)
  rw [h2]
  split_ifs with hc
  · rfl
  · exfalso; omega

/-- A fold of 32-bit addition over a finite set, from an initial word, is that word plus the set's sum. -/
theorem fold_addi (s : Finset ι) (init : BitVec 32) (f : ι → BitVec 32) :
    s.fold IntOp.addi init f = init + ∑ i ∈ s, f i := by
  classical
  refine Finset.induction_on s (by simp) ?_
  intro a s ha ih
  rw [Finset.fold_insert ha, Finset.sum_insert ha, ih]
  show f a + (init + ∑ i ∈ s, f i) = init + (f a + ∑ i ∈ s, f i)
  rw [add_left_comm]

end Cert.BitCount

end
-- ==== Proof.Spec.lean ====
/-
  The loss of one row, and the whole result.

  A row holds n real scores x_k and n label words t_k; a label is positive when its word is 1. The row's loss is
      ( Σ_{k positive} exp(0 - x_k) ) * ( Σ_{k not positive} exp(x_k) )  /  ( #positive * #not positive ),
  the counts taken as numbers, and the result is the sum of the rows' losses. This file states the loss in that
  separable form (`lossOf`) and shows that the pairwise form — the sum over pairs (p, q), p positive and q not, of
  exp(x_q - x_p), divided by the number of such pairs counted in 32-bit words — is the same number when the scores are
  real: the numerator by the factorization of the double sum, the denominator because a count below 2^31 does not wrap.
  The division is one function on both sides, so a row with no positive or no non-positive label (0 / 0) needs no care.
-/
import Idealize.ShloMosaic.PureOps.Ideal
import Idealize.ShloMosaic.Lib.ValueIdx
import proofs.«142731_j86998857548253_1_alg».proof.Proof.PairLaw
import proofs.«142731_j86998857548253_1_alg».proof.Proof.BitCount

noncomputable section

open scoped BigOperators

namespace Cert.Spec

open Idealize.ShloMosaic

/-- The bit "this label word is 1". -/
abbrev lab (w : BitVec 32) : BitVec 1 := IntOp.cmpi .eq w 1#32
/-- The bit "this label word is not 1". -/
abbrev nlab (w : BitVec 32) : BitVec 1 := IntOp.xori (lab w) 1#1

variable {n : ℕ}

/-- Σ over the positive labels of exp(0 - x_k). -/
def sumA (xr : Fin n → EReal) (tr : Fin n → BitVec 32) : EReal :=
  ∑ k, Scalar.select (lab (tr k)) (Ideal.exp (0 - xr k)) 0
/-- Σ over the other labels of exp(x_k). -/
def sumC (xr : Fin n → EReal) (tr : Fin n → BitVec 32) : EReal :=
  ∑ k, Scalar.select (nlab (tr k)) (Ideal.exp (xr k)) 0
/-- The number of positive labels. -/
def cntP (tr : Fin n → BitVec 32) : EReal := ∑ k, ((((lab (tr k)).setWidth 32).toInt : ℝ) : EReal)
/-- The number of the other labels. -/
def cntN (tr : Fin n → BitVec 32) : EReal := ∑ k, ((((nlab (tr k)).setWidth 32).toInt : ℝ) : EReal)
/-- The row's loss. -/
def lossOf (xr : Fin n → EReal) (tr : Fin n → BitVec 32) : EReal :=
  Ideal.div (sumA xr tr * sumC xr tr) (cntP tr * cntN tr)

/-- THE NUMERATOR: for real scores the sum over pairs is the product of the two row sums. -/
theorem numer_eq (xr : Fin n → EReal) (hx : ∀ k, ∃ r : ℝ, xr k = (r : EReal)) (tr : Fin n → BitVec 32) :
    (∑ p, ∑ q, Scalar.select (IntOp.andi (lab (tr p)) (~~~(lab (tr q)))) (Ideal.exp (xr q - xr p)) 0)
      = sumA xr tr * sumC xr tr := by
  have h : ∀ p q, Scalar.select (IntOp.andi (lab (tr p)) (~~~(lab (tr q)))) (Ideal.exp (xr q - xr p)) 0
      = if lab (tr p) = 1#1 ∧ ¬ lab (tr q) = 1#1 then Ideal.exp (xr q - xr p) else 0 := by
    intro p q
    rw [BitCount.select_bit]
    exact if_congr (BitCount.andi_not _ _) rfl rfl
  have hA : ∀ k, Scalar.select (lab (tr k)) (Ideal.exp (0 - xr k)) 0
      = if lab (tr k) = 1#1 then Ideal.exp (0 - xr k) else 0 := fun k => BitCount.select_bit _ _ _
  have hC : ∀ k, Scalar.select (nlab (tr k)) (Ideal.exp (xr k)) 0
      = if ¬ lab (tr k) = 1#1 then Ideal.exp (xr k) else 0 := by
    intro k
    rw [BitCount.select_bit]
    exact if_congr (BitCount.xori_one _) rfl rfl
  unfold sumA sumC
  simp only [h, hA, hC]
  exact PairLaw.pair_sum xr hx (fun k => lab (tr k) = 1#1)

/-- THE DENOMINATOR: the pairs counted in 32-bit words, read as a number, are #positive * #others (no wrap below 2^31). -/
theorem denom_eq (tr : Fin n → BitVec 32) (hn : n * n < 2147483648) :
    ((((0#32 + ∑ p, ∑ q, (IntOp.andi (lab (tr p)) (~~~(lab (tr q)))).setWidth 32).toInt : ℤ) : ℝ) : EReal)
      = cntP tr * cntN tr := by
  have h : ∀ p q, (IntOp.andi (lab (tr p)) (~~~(lab (tr q)))).setWidth 32
      = BitVec.ofNat 32 (if lab (tr p) = 1#1 ∧ ¬ lab (tr q) = 1#1 then 1 else 0) := by
    intro p q
    rw [BitCount.setWidth_bit]
    exact congrArg _ (if_congr (BitCount.andi_not _ _) rfl rfl)
  simp only [h, BitCount.sum_ofNat]
  rw [BitVec.zero_add, PairLaw.pair_count (fun k => lab (tr k) = 1#1)]
  have hP : (∑ k : Fin n, (if lab (tr k) = 1#1 then 1 else 0 : ℕ)) ≤ n := by
    calc (∑ k : Fin n, (if lab (tr k) = 1#1 then 1 else 0 : ℕ)) ≤ ∑ _k : Fin n, 1 :=
          Finset.sum_le_sum (fun k _ => by split_ifs <;> omega)
      _ = n := by simp
  have hN : (∑ k : Fin n, (if ¬ lab (tr k) = 1#1 then 1 else 0 : ℕ)) ≤ n := by
    calc (∑ k : Fin n, (if ¬ lab (tr k) = 1#1 then 1 else 0 : ℕ)) ≤ ∑ _k : Fin n, 1 :=
          Finset.sum_le_sum (fun k _ => by split_ifs <;> omega)
      _ = n := by simp
  rw [BitCount.toInt_ofNat_small _ (lt_of_le_of_lt (Nat.mul_le_mul hP hN) hn)]
  rw [Int.cast_natCast, Nat.cast_mul, EReal.coe_mul, ← PairLaw.count_coe, ← PairLaw.count_coe]
  unfold cntP cntN
  congr 1 <;> refine Finset.sum_congr rfl fun k _ => ?_
  · rw [BitCount.cast_bit]
  · rw [BitCount.cast_bit]
    exact if_congr (BitCount.xori_one _).symm rfl rfl

/-- So, for real scores and fewer than 2^31 pairs, the pairwise quotient is the row's loss. -/
theorem pairwise_eq (xr : Fin n → EReal) (hx : ∀ k, ∃ r : ℝ, xr k = (r : EReal)) (tr : Fin n → BitVec 32)
    (hn : n * n < 2147483648) :
    Ideal.div (0 + ∑ p, ∑ q, Scalar.select (IntOp.andi (lab (tr p)) (~~~(lab (tr q)))) (Ideal.exp (xr q - xr p)) 0)
        ((((0#32 + ∑ p, ∑ q, (IntOp.andi (lab (tr p)) (~~~(lab (tr q)))).setWidth 32).toInt : ℤ) : ℝ) : EReal)
      = lossOf xr tr := by
  rw [zero_add, numer_eq xr hx tr, denom_eq tr hn]
  rfl

/-- THE RESULT: the sum over the 128 rows of the row's loss, each row read off the [128, 1024] arrays. -/
def total (X : (⟨2, ![128, 1024]⟩ : Shape).Idx → EReal) (T : (⟨2, ![128, 1024]⟩ : Shape).Idx → BitVec 32) : EReal :=
  ∑ b : Fin 128, lossOf (fun k : Fin 1024 => X (ValueIdx.ix2 b k)) (fun k : Fin 1024 => T (ValueIdx.ix2 b k))

/-- A sum over a rank-1 index set is the sum over its coordinate. -/
theorem sum_idx1 {M : Type} [AddCommMonoid M] {m : ℕ} (f : (⟨1, ![m]⟩ : Shape).Idx → M) :
    ∑ i, f i = ∑ a : Fin m, f (ValueIdx.ix1 a) :=
  Fintype.sum_equiv ⟨fun i => i 0, ValueIdx.ix1, fun i => (ValueIdx.eq_ix1 i).symm, fun _ => rfl⟩ _ _
    (fun i => congrArg f (ValueIdx.eq_ix1 i))

end Cert.Spec

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.KernelPayload.lean ====
/-
  What the kernel body stores, at a row of its block.

  The body takes a block of 32 rows of scores and labels and stores one number per row: with "positive" meaning the label
  word is 1, the sum over the positive columns of exp(0 - x), times the sum over the other columns of exp(x), divided by
  the product of the two column counts. Each of the four row sums is an add-reduction over the columns, kept as a column
  of width one; read at row r they are the four sums of Spec over that row of the block.
-/
import proofs.«142731_j86998857548253_1_alg».proof.Proof.Gen.KernelIdeal.Skeleton
import proofs.«142731_j86998857548253_1_alg».proof.Proof.Spec
import proofs.«142731_j86998857548253_1_alg».proof.Proof.LibRowSum
import proofs.«142731_j86998857548253_1_alg».proof.Proof.LibKeepdimsLayout
import Idealize.ShloMosaic.Lib.ValueIdx
import Idealize.ShloMosaic.PureOps.Ideal.Laws

noncomputable section

open scoped BigOperators

namespace Cert.KernelPayload

open Cert.KernelIdeal Cert.KernelIdeal.Gen Idealize.ShloMosaic Idealize.ShloMosaic.ValueIdx
open Cert.Spec

/-- THE STORED VALUE at row `r` of the block: the loss of that row of the block. -/
theorem pay_at (v0 : Vec Ideal S32x1024 .f32) (v1 : Vec Ideal S32x1024 .i32) (r : Fin 32) (u : Fin 1) :
    k0_pay1 (F := Ideal) v0 v1 (ix2 r u)
      = lossOf (fun k : Fin 1024 => v0 (ix2 r k)) (fun k : Fin 1024 => v1 (ix2 r k)) := by
  unfold k0_pay1 lossOf
  show Ideal.div (_ * _) (_ * _) = Ideal.div (_ * _) (_ * _)
  congr 1
  · congr 1
    · refine (Cert.LayoutKeepdims.shapeCast_a_a1_apply _ _ r u).trans ?_
      refine (Idealize.ShloMosaic.RowSum.rowSum_apply _ _ _ _ r).trans ?_
      refine Finset.sum_congr rfl fun k _ => ?_
      show Scalar.select _ (Ideal.exp (Ideal.ofBits .f32 0x00000000#32 - _)) (Ideal.ofBits .f32 0x00000000#32) = _
      rw [Ideal.ofBits_zero_f32]
      rfl
    · refine (Cert.LayoutKeepdims.shapeCast_a_a1_apply _ _ r u).trans ?_
      refine (Idealize.ShloMosaic.RowSum.rowSum_apply _ _ _ _ r).trans ?_
      refine Finset.sum_congr rfl fun k _ => ?_
      show Scalar.select _ (Ideal.exp _) (Ideal.ofBits .f32 0x00000000#32) = _
      rw [Ideal.ofBits_zero_f32]
      rfl
  · congr 1
    · refine (Cert.LayoutKeepdims.shapeCast_a_a1_apply _ _ r u).trans ?_
      refine (Idealize.ShloMosaic.RowSum.rowSum_apply _ _ _ _ r).trans ?_
      rfl
    · refine (Cert.LayoutKeepdims.shapeCast_a_a1_apply _ _ r u).trans ?_
      refine (Idealize.ShloMosaic.RowSum.rowSum_apply _ _ _ _ r).trans ?_
      rfl

end Cert.KernelPayload

end
-- ==== Proof.KernelValue.lean ====
/-
  What the kernel's result holds after the run.

  The call has four grid points; point t takes rows 32t … 32t + 31 of the scores and of the labels and writes rows
  32t … 32t + 31 of a [128, 1] array: row r of that array is the loss of row r of the arguments. The four blocks tile the
  array, so after the call it holds every row's loss; the line after the call sums the array from zero, which gives the
  sum over the 128 rows.
-/
import proofs.«142731_j86998857548253_1_alg».proof.Proof.Gen.KernelIdeal.Frame
import proofs.«142731_j86998857548253_1_alg».proof.Proof.KernelPayload
import Idealize.ShloMosaic.Lib.Pipeline.Value
import Idealize.ShloMosaic.Lib.StableHlo.Run
import Idealize.ShloMosaic.PureOps.Ideal.Laws
import Idealize.ShloMosaic.Lib.Tactic

noncomputable section

open scoped BigOperators

open Idealize.ShloMosaic Idealize.ShloMosaic.TcCoe Idealize.SL.Sem
open Idealize.ShloMosaic.Pipeline (Dat)

namespace Cert.KernelValue

open Cert.KernelIdeal Cert.KernelIdeal.Gen Idealize.ShloMosaic.ValueIdx Cert.Spec

variable (m : (ℓ : Loc nD τ sig) → Buf (Elt Ideal) ℓ) (ρ : Dev nD → PrngReg)

/-- The array of the rows' losses: entry (r, 0) is the loss of row r of the two arguments. -/
def rowLosses (X : S128x1024.Idx → EReal) (T : S128x1024.Idx → BitVec 32) : S128x1.Idx → EReal :=
  fun i => lossOf (fun k : Fin 1024 => X (ix2 (i 0) k)) (fun k : Fin 1024 => T (ix2 (i 0) k))

theorem hz : (![0, 0] : Fin 2 → Nat) = fun _ => 0 := funext fun a => by fin_cases a <;> rfl

/-- At point t every window is on block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The scores' block at point t is rows 32t … 32t + 31 of the scores. -/
theorem scores_blk (c : Dev nD) (t : Fin cfg0.N) (x : S32x1024.Idx) (k : S128x1024.Idx)
    (hk0 : (k 0).val = 32 * t.val + (x 0).val) (hk1 : (k 1).val = (x 1).val) :
    (iblk m c 0 t : Vec Ideal S32x1024 .f32) x = (V m c main_arg0 : S128x1024.Idx → EReal) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 32 + 1 * (x 0).val = (k 0).val; rw [e0, hk0]; omega
  | ⟨1, _⟩ => show win0_0.index t 1 * 1024 + 1 * (x 1).val = (k 1).val; rw [e1, hk1]; omega

/-- The labels' block at point t is rows 32t … 32t + 31 of the labels. -/
theorem labels_blk (c : Dev nD) (t : Fin cfg0.N) (x : S32x1024.Idx) (k : S128x1024.Idx)
    (hk0 : (k 0).val = 32 * t.val + (x 0).val) (hk1 : (k 1).val = (x 1).val) :
    (iblk m c 1 t : Vec Ideal S32x1024 .i32) x = (V m c main_arg1 : S128x1024.Idx → BitVec 32) k := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 32 + 1 * (x 0).val = (k 0).val; rw [e0, hk0]; omega
  | ⟨1, _⟩ => show win0_1.index t 1 * 1024 + 1 * (x 1).val = (k 1).val; rw [e1, hk1]; omega

/-- A block's stored value at a row is the loss of the array row it holds: stated over plain blocks and arrays, the
    rows identified by hypotheses. -/
theorem block_loss (x0 : Vec Ideal S32x1024 .f32) (x1 : Vec Ideal S32x1024 .i32) (X : S128x1024.Idx → EReal)
    (T : S128x1024.Idx → BitVec 32) (j : S32x1.Idx) (i : S128x1.Idx)
    (h0 : ∀ k : Fin 1024, x0 (ix2 (j 0) k) = X (ix2 (i 0) k)) (h1 : ∀ k : Fin 1024, x1 (ix2 (j 0) k) = T (ix2 (i 0) k)) :
    k0_pay1 (F := Ideal) x0 x1 j = rowLosses X T i := by
  refine (congrArg (k0_pay1 (F := Ideal) x0 x1) (eq_ix2 j)).trans ((Cert.KernelPayload.pay_at x0 x1 (j 0) (j 1)).trans ?_)
  unfold rowLosses
  congr 1
  · funext k; exact h0 k
  · funext k; exact h1 k

/-- WHAT POINT t WRITES BACK is block t of the rows' losses of the arguments. -/
theorem flushed_eq (c : Dev nD) (t : Fin cfg0.N) :
    (dats m 0 c).flushed 2 t
      = ((cfg0.win 2).blk t).view.read (Elt Ideal) (rowLosses (V m c main_arg0) (V m c main_arg1)) := by
  show (cfg0.win 2).cut (grid0.coords t) ((dats m 0 c).after 2 t) = _
  rw [after0_2]
  unfold out0_2
  rw [View.canon_unit_zero hz]
  simp only [View.ld_unit_zero (S := S32x1024) hz]
  obtain ⟨-, -, -, -, e0, e1⟩ := idx_facts t
  funext j
  have hr : ((((cfg0.win 2).blk t).view.emb j) 0).val
      = 32 * t.val + ((((cfg0.win 2).xinj (grid0.coords t) j : S32x1.Idx) 0).val) := by
    show win0_2.index t 0 * 32 + 1 * (j 0).val = 32 * t.val + (j 0).val
    rw [e0]; omega
  have key := block_loss (iblk m c 0 t) (iblk m c 1 t) (V m c main_arg0) (V m c main_arg1)
    ((cfg0.win 2).xinj (grid0.coords t) j) (((cfg0.win 2).blk t).view.emb j)
    (fun k => scores_blk m c t (ix2 (((cfg0.win 2).xinj (grid0.coords t) j : S32x1.Idx) 0) k)
      (ix2 ((((cfg0.win 2).blk t).view.emb j) 0) k) hr rfl)
    (fun k => labels_blk m c t (ix2 (((cfg0.win 2).xinj (grid0.coords t) j : S32x1.Idx) 0) k)
      (ix2 ((((cfg0.win 2).blk t).view.emb j) 0) k) hr rfl)
  have hcut : ∀ X : S32x1.Idx → EReal,
      (cfg0.win 2).cut (grid0.coords t) X j = X ((cfg0.win 2).xinj (grid0.coords t) j) := fun _ => rfl
  have hread : ∀ f : S128x1.Idx → EReal,
      ((cfg0.win 2).blk t).view.read (Elt Ideal) f j = f (((cfg0.win 2).blk t).view.emb j) := fun _ => rfl
  exact (hcut _).trans (key.trans (hread _).symm)

/-- An index of the [128, 1] array is in point t's block iff its row is among rows 32t … 32t + 31. -/
theorem mem_blk (t : Fin cfg0.N) (i : S128x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v0).slice (win0_2.rect t)).set ↔ _
  rw [View.set_slice_whole, Rect.mem_set_unit]
  exact Iff.rfl

/-- THE ARRAY after the call: every row's loss. -/
theorem final (c : Dev nD) :
    (dats m 0 c).arrAt 2 cfg0.N = rowLosses (V m c main_arg0) (V m c main_arg1) :=
  (dats m 0 c).arrAt_eq_of_cover 2 _ (fun t _ => flushed_eq m c t) fun i => by
    have hi0 : (i 0).val < 128 := (i 0).isLt
    have hi1 : (i 1).val < 1 := (i 1).isLt
    have hN : cfg0.N = 4 := N_0
    refine ⟨⟨(i 0).val / 32, by omega⟩, flush0_2 _, ?_⟩
    rw [mem_blk]
    obtain ⟨-, -, -, -, e0, e1⟩ := idx_facts ⟨(i 0).val / 32, by omega⟩
    intro a
    match a with
    | ⟨0, _⟩ =>
      show win0_2.index _ 0 * 32 ≤ (i 0).val ∧ (i 0).val < win0_2.index _ 0 * 32 + 32
      rw [e0]; show (i 0).val / 32 * 32 ≤ (i 0).val ∧ (i 0).val < (i 0).val / 32 * 32 + 32; omega
    | ⟨1, _⟩ =>
      show win0_2.index _ 1 * 1 ≤ (i 1).val ∧ (i 1).val < win0_2.index _ 1 * 1 + 1
      rw [e1]; omega

/-- The line after the call sums the array from zero: the sum over the rows of the row's loss. -/
theorem tail_eq (c : Dev nD) :
    Pipeline.afterTail₀ cfgs (dats m) 0 (V0 m) [hostOps1] c main_v1
      = fun _ => total (m ((c.tc : Thread nD τ).loc main_arg0)) (m ((c.tc : Thread nD τ).loc main_arg1)) := by
  unfold Pipeline.afterTail₀
  show StableHlo.after hostOps1 _ (Proc.devRef .tc main_v1) = _
  after_results
  rw [(Pipeline.withArrays_arr spec0 launch0.win.arr_inj c _ _ 2).trans (final m c)]
  funext i
  simp only [Host.reduceAdd, Ideal.hostReduceAdd_def]
  rw [Ideal.hostReduceAdd_total reducesTo_S128x1_S_d0_1 (fun b => b.elim0)]
  show Ideal.ofBits .f32 0x00000000#32 + _ = _
  rw [Ideal.ofBits_zero_f32, zero_add, sum_idx2]
  unfold total
  refine Finset.sum_congr rfl fun b _ => ?_
  rw [Fin.sum_univ_one]
  rfl

/-- THE KERNEL'S RUN, READ: it terminates with the result at the sum of the rows' losses, the arguments unchanged. -/
theorem run : θ_run defs (onTc (τ := τ) (main (F := Ideal))) ⟨m, fun _ => 0, ρ⟩ fun r => ∀ c : Dev nD,
      r.2.mem ((c.tc : Thread nD τ).loc main_v1)
        = (fun _ => total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelValue

end
-- ==== Proof.LibSumIdx3.lean ====
/-
  A sum over a rank-3 index set is the triple sum over its coordinates (the rank-3 companion of the library's `sum_idx2`).
-/
import Idealize.ShloMosaic.Lib.ValueIdx

namespace Cert.SumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it, in any commutative additive monoid, is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.SumIdx3
-- ==== Proof.LibReduceTail2.lean ====
/-
  A reduction over the last two axes of a rank-3 array, read at an entry.

  Reducing an [a, b, c] array over its second and third axes leaves a vector of length a; the source indices lying over
  entry r are exactly the (r, p, q), so a sum over that fibre, in any commutative additive monoid, is the double sum over
  p and q. Hence the host's float sum over those axes is the initial value plus that double sum, and the host's reduction
  by a commutative, associative operation is its fold over the fibre.
-/
import Idealize.ShloMosaic.PureOps.Ideal.Laws
import Idealize.ShloMosaic.PureOps.Reduce
import Idealize.ShloMosaic.Lib.ValueIdx
import proofs.«142731_j86998857548253_1_alg».proof.Proof.LibSumIdx3

noncomputable section

open scoped BigOperators

namespace Cert.ReduceTail2

open Idealize.ShloMosaic Idealize.ShloMosaic.ValueIdx

variable {a b c : ℕ}

/-- A source index lies over entry `j` exactly when its first coordinate is `j`'s. -/
theorem drop_eq_iff (h : (⟨3, ![a, b, c]⟩ : Shape).ReducesTo [1, 2] ⟨1, ![a]⟩) (i : (⟨3, ![a, b, c]⟩ : Shape).Idx)
    (j : (⟨1, ![a]⟩ : Shape).Idx) : h.drop i = j ↔ i 0 = j 0 := by
  have hv : (h.drop i 0 : ℕ) = i 0 := rfl
  constructor
  · intro e
    exact Fin.ext (hv.symm.trans (congrArg (fun k : (⟨1, ![a]⟩ : Shape).Idx => (k 0 : ℕ)) e))
  · intro e
    funext d
    match d with
    | ⟨0, _⟩ => exact Fin.ext (hv.trans (congrArg Fin.val e))

/-- THE FIBRE SUM: the sum over the source indices lying over entry `r` is the double sum over the two reduced
    coordinates. -/
theorem sum_fibre {M : Type} [AddCommMonoid M] (h : (⟨3, ![a, b, c]⟩ : Shape).ReducesTo [1, 2] ⟨1, ![a]⟩)
    (f : (⟨3, ![a, b, c]⟩ : Shape).Idx → M) (r : Fin a) [DecidablePred fun i => h.drop i = ix1 r] :
    (∑ i ∈ Finset.univ.filter (fun i => h.drop i = ix1 r), f i) = ∑ p : Fin b, ∑ q : Fin c, f (ix3 r p q) := by
  rw [Finset.sum_filter, Cert.SumIdx3.sum_idx3, Finset.sum_eq_single r]
  · refine Finset.sum_congr rfl fun p _ => Finset.sum_congr rfl fun q _ => ?_
    rw [if_pos ((drop_eq_iff h _ _).2 rfl)]
  · intro a' _ hne
    refine Finset.sum_eq_zero fun p _ => Finset.sum_eq_zero fun q _ => ?_
    rw [if_neg (fun e => hne ((drop_eq_iff h _ _).1 e))]
  · intro hn
    exact absurd (Finset.mem_univ r) hn

/-- The host's float sum over the last two axes, at entry `r`: the initial value plus the double sum. -/
theorem hostReduceAdd_apply (h : (⟨3, ![a, b, c]⟩ : Shape).ReducesTo [1, 2] ⟨1, ![a]⟩)
    (x : (⟨3, ![a, b, c]⟩ : Shape).Idx → EReal) (init : EReal) (r : Fin a) :
    Ideal.hostReduceAdd h x init (ix1 r) = init + ∑ p : Fin b, ∑ q : Fin c, x (ix3 r p q) := by
  unfold Ideal.hostReduceAdd
  rw [sum_fibre]

end Cert.ReduceTail2

end
-- ==== Proof.RefRead.lean ====
/-
  The reference's result is the sum of the rows' losses.

  Read stage by stage at an index: the pair mask at (b, p, q) is "label p of row b is positive and label q is not", the
  exponent there is x[b, q] - x[b, p], the masked exponentials are summed over (p, q) into row b, the mask itself is summed
  over (p, q) in 32-bit words and converted, the two are divided, and the quotients are summed over the rows. For real
  scores each quotient is the row's loss (the factorization and the count of Spec), so the result is their sum.
-/
import proofs.«142731_j86998857548253_1_alg».proof.Proof.Gen.ReferenceIdeal.Read
import proofs.«142731_j86998857548253_1_alg».proof.Proof.Spec
import proofs.«142731_j86998857548253_1_alg».proof.Proof.LibReduceTail2
import Idealize.ShloMosaic.Lib.ValueIdx

noncomputable section

open scoped BigOperators

namespace Cert.RefRead

open Cert.ReferenceIdeal Cert.ReferenceIdeal.Gen Cert.ReferenceIdeal.Read Idealize.ShloMosaic Idealize.ShloMosaic.ValueIdx
open Cert.Spec

variable (x0 : S128x1024.Idx → EReal) (x1 : S128x1024.Idx → BitVec 32)

/-! ## The composed index maps at (b, p, q) -/

theorem e5 (b : Fin 128) (p q : Fin 1024) : idx_main_v2 (idx_main_v5 (ix3 b p q)) = ix2 b p :=
  funext fun a => Fin.ext (by match a with | ⟨0, _⟩ => rfl | ⟨1, _⟩ => rfl)
theorem e6 (b : Fin 128) (p q : Fin 1024) : idx_main_v4 (idx_main_v6 (ix3 b p q)) = ix2 b q :=
  funext fun a => Fin.ext (by match a with | ⟨0, _⟩ => rfl | ⟨1, _⟩ => rfl)
theorem e10 (b : Fin 128) (p q : Fin 1024) : idx_main_v8 (idx_main_v10 (ix3 b p q)) = ix2 b q :=
  funext fun a => Fin.ext (by match a with | ⟨0, _⟩ => rfl | ⟨1, _⟩ => rfl)
theorem e11 (b : Fin 128) (p q : Fin 1024) : idx_main_v9 (idx_main_v11 (ix3 b p q)) = ix2 b p :=
  funext fun a => Fin.ext (by match a with | ⟨0, _⟩ => rfl | ⟨1, _⟩ => rfl)

/-! ## The stages at an index -/

/-- The pair mask at (b, p, q): label p of row b is positive and label q is not. -/
theorem v7_at (b : Fin 128) (p q : Fin 1024) :
    val_main_v7 (F := Ideal) x1 (ix3 b p q) = IntOp.andi (lab (x1 (ix2 b p))) (~~~(lab (x1 (ix2 b q)))) := by
  rw [val_main_v7_apply, val_main_v5_apply, val_main_v2_apply, val_main_v6_apply, val_main_v4_apply, val_main_v3_apply,
    e5, e6, val_main_v1_apply, val_main_v1_apply, val_main_v0_apply, val_main_v0_apply]
  rfl

/-- The exponential at (b, p, q): exp(x[b, q] - x[b, p]). -/
theorem v13_at (b : Fin 128) (p q : Fin 1024) :
    val_main_v13 (F := Ideal) x0 (ix3 b p q) = Ideal.exp (x0 (ix2 b q) - x0 (ix2 b p)) := by
  rw [val_main_v13_apply, val_main_v12_apply, val_main_v10_apply, val_main_v8_apply, val_main_v11_apply, val_main_v9_apply,
    e10, e11]
  rfl

/-- The masked exponential at (b, p, q). -/
theorem v17_at (b : Fin 128) (p q : Fin 1024) :
    val_main_v17 (F := Ideal) x0 x1 (ix3 b p q)
      = Scalar.select (IntOp.andi (lab (x1 (ix2 b p))) (~~~(lab (x1 (ix2 b q))))) (Ideal.exp (x0 (ix2 b q) - x0 (ix2 b p))) 0 := by
  rw [val_main_v17_apply, v7_at, v13_at, val_main_call0_v0_apply, val_main_cst_apply]
  show Scalar.select _ _ (Ideal.ofBits .f32 0x00000000#32) = _
  rw [Ideal.ofBits_zero_f32]

/-- The masked exponentials summed into row b. -/
theorem v18_at (b : Fin 128) :
    val_main_v18 (F := Ideal) x0 x1 (ix1 b)
      = 0 + ∑ p : Fin 1024, ∑ q : Fin 1024,
          Scalar.select (IntOp.andi (lab (x1 (ix2 b p))) (~~~(lab (x1 (ix2 b q))))) (Ideal.exp (x0 (ix2 b q) - x0 (ix2 b p))) 0 := by
  unfold val_main_v18
  simp only [Host.reduceAdd, Ideal.hostReduceAdd_def]
  rw [Cert.ReduceTail2.hostReduceAdd_apply]
  simp only [v17_at]
  congr 1
  show Ideal.ofBits .f32 0x00000000#32 = 0
  exact Ideal.ofBits_zero_f32

/-- The pair mask counted into row b, in 32-bit words. -/
theorem v15_at (b : Fin 128) :
    val_main_v15 (F := Ideal) x1 (ix1 b)
      = 0#32 + ∑ p : Fin 1024, ∑ q : Fin 1024, (IntOp.andi (lab (x1 (ix2 b p))) (~~~(lab (x1 (ix2 b q))))).setWidth 32 := by
  unfold val_main_v15
  rw [Host.reduce_eq_fold, Cert.BitCount.fold_addi, Cert.ReduceTail2.sum_fibre]
  simp only [val_main_v14_apply, v7_at]
  rfl

/-- Row b's quotient is the row's loss, for real scores. -/
theorem v19_at (hx : ∀ i, ∃ r : ℝ, x0 i = (r : EReal)) (b : Fin 128) :
    val_main_v19 (F := Ideal) x0 x1 (ix1 b)
      = lossOf (fun k : Fin 1024 => x0 (ix2 b k)) (fun k : Fin 1024 => x1 (ix2 b k)) := by
  rw [val_main_v19_apply, val_main_v16_apply, v18_at, v15_at]
  exact pairwise_eq (fun k : Fin 1024 => x0 (ix2 b k)) (fun k => hx _) (fun k : Fin 1024 => x1 (ix2 b k)) (by norm_num)

/-- THE REFERENCE'S RESULT, for real scores: the sum of the rows' losses. -/
theorem result_eq (hx : ∀ i, ∃ r : ℝ, x0 i = (r : EReal)) :
    val_main_v20 (F := Ideal) x0 x1 = fun _ => total x0 x1 := by
  funext i
  rw [val_main_v20_apply, sum_idx1]
  simp only [v19_at x0 x1 hx]
  show Ideal.ofBits .f32 0x00000000#32 + _ = _
  rw [Ideal.ofBits_zero_f32, zero_add]
  rfl

end Cert.RefRead

end
-- ==== Proof.Finite.lean ====
/-
  The precondition says every score is a real number.

  The precondition is the conjunction over all entries of |x| < +inf, computed as a reduction by "and" of the comparison
  bits from the bit 1; it being 1 means every comparison bit is 1. On the extended reals |x| = max x (-x), and
  max x (-x) < +inf excludes exactly x = +inf and x = -inf, so x is a real number.
-/
import proofs.«142731_j86998857548253_1_alg».proof.Pre_finite_inputs
import proofs.«142731_j86998857548253_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx Cert.Pre_finite_inputs Cert.Pre_finite_inputs.Gen

instance : Subsingleton S_.Idx := ⟨fun a b => funext fun d => d.elim0⟩

/-- The word 0x7F800000 denotes +inf. -/
theorem ofBits_inf : Ideal.ofBits .f32 0x7F800000#32 = ⊤ := by simp [Ideal.ofBits, Ideal.ieee]

/-- An extended real whose absolute value is below +inf is a real number. -/
theorem real_of_abs_lt_top (x : EReal) (h : max x (-x) < ⊤) : ∃ r : ℝ, x = (r : EReal) := by
  induction x using EReal.rec
  · simp at h
  · exact ⟨_, rfl⟩
  · simp at h

/-- A comparison bit "a < b" that is 1 says a < b. -/
theorem lt_of_cmp_olt (a b : EReal) (h : Ideal.cmp .olt a b = 1#1) : a < b := by
  by_contra hn
  have : Ideal.cmp .olt a b = 0#1 := by simp [Ideal.cmp, hn]
  rw [this] at h
  exact absurd h (by decide)

/-- THE PRECONDITION, READ: every score is a real number. -/
theorem real_of_pre (X : S128x1024.Idx → EReal) (T : S128x1024.Idx → BitVec 32)
    (h : Cert.Pre_finite_inputs.fn (F := Ideal) X T = fun _ => 1#1) (i : S128x1024.Idx) :
    ∃ r : ℝ, X i = (r : EReal) := by
  have h0 := congrFun h ix0
  dsimp only [Cert.Pre_finite_inputs.fn] at h0
  have hi := Host.reduce_andi_all _ _ _ _ _ h0 i
  rw [cmpf_apply, broadcastInDim_apply _ bcast_S_S128x1024 _ i (fun a => a.elim0) (fun a => a.elim0)] at hi
  refine real_of_abs_lt_top (X i) ?_
  have := lt_of_cmp_olt _ _ hi
  rw [constant_apply, ofBits_inf] at this
  exact this

end Cert.Finite

end
-- ==== Proof.lean ====
/-
  The kernel computes, for each of 128 rows of 1024 scores x and label words t (a label is positive when its word is 1),
      loss = ( Σ_{k positive} exp(0 - x_k) ) * ( Σ_{k not positive} exp(x_k) ) / ( #positive * #not positive ),
  four row sums per row, and returns the sum of the rows' losses. The reference computes, per row, the sum over all pairs
  (p, q) with p positive and q not of exp(x_q - x_p), divided by the number of such pairs (counted in 32-bit integers and
  converted), and returns the sum over the rows.

  On the extended reals the two agree when every score is a real number, which is what the precondition says:
  exp(x_q - x_p) = exp(0 - x_p) * exp(x_q), a finite double sum of products of reals is the product of the sums, the
  number of pairs is the product of the two counts and stays below 2^31, and the division is the same function on both
  sides (so a row with no pair, 0 / 0, reads the same). The three frames are the generated ones (the reference's is its
  run with the result dropped); the idealization rewrote nothing, so there is nothing to preserve.
-/
import proofs.«142731_j86998857548253_1_alg».proof.Defs
import proofs.«142731_j86998857548253_1_alg».proof.Proof.Gen.Kernel
import proofs.«142731_j86998857548253_1_alg».proof.Proof.Gen.Kernel.Skeleton
import proofs.«142731_j86998857548253_1_alg».proof.Proof.Gen.Kernel.Launch
import proofs.«142731_j86998857548253_1_alg».proof.Proof.Gen.Kernel.Points
import proofs.«142731_j86998857548253_1_alg».proof.Proof.Gen.Kernel.Frame
import proofs.«142731_j86998857548253_1_alg».proof.Proof.Gen.KernelIdeal
import proofs.«142731_j86998857548253_1_alg».proof.Proof.Gen.KernelIdeal.Skeleton
import proofs.«142731_j86998857548253_1_alg».proof.Proof.Gen.KernelIdeal.Launch
import proofs.«142731_j86998857548253_1_alg».proof.Proof.Gen.KernelIdeal.Points
import proofs.«142731_j86998857548253_1_alg».proof.Proof.Gen.KernelIdeal.Frame
import proofs.«142731_j86998857548253_1_alg».proof.Proof.Gen.ReferenceIdeal
import proofs.«142731_j86998857548253_1_alg».proof.Proof.Gen.Pre_finite_inputs
import proofs.«142731_j86998857548253_1_alg».proof.Proof.Gen.ReferenceIdeal.Run
import proofs.«142731_j86998857548253_1_alg».proof.Proof.Gen.ReferenceIdeal.Read
import proofs.«142731_j86998857548253_1_alg».proof.Proof.KernelValue
import proofs.«142731_j86998857548253_1_alg».proof.Proof.RefRead
import proofs.«142731_j86998857548253_1_alg».proof.Proof.Finite
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the sum over the rows of the row's loss of the same arguments: the kernel by its blocks and
    the line after the call, the reference by the factorization of the pairwise sum, for scores the precondition makes
    real. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq _ _).trans ?_
  rw [(hagree c).1, (hagree c).2]
  exact Cert.RefRead.result_eq _ _ (Cert.Finite.real_of_pre _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
